-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v48_0)) (v3 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v48_0) = v2 c
          ∧ r.2.mem ((c.tc : Thread Cert.KernelIdeal.nD Cert.KernelIdeal.τ).loc Cert.KernelIdeal.main_v48_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S50257x1024 : Shape := ⟨2, ![50257, 1024]⟩
abbrev S50257 : Shape := ⟨1, ![50257]⟩
abbrev S8192 : Shape := ⟨1, ![8192]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_v13 : IVec S_ 1) (main_v16 : IVec S50257 1) : IVec S_ 1 :=
  let main_c_5 : IVec S_ 1 := constantI S_ 1 1#1
  let main_v17 : IVec S_ 1 := (fun x v => Host.reduce IntOp.andi x v reducesTo_S50257_S_d0 h_S_) main_v16 main_c_5
  let main_v18 : IVec S_ 1 := andi main_v13 main_v17
  main_v18

def fn {F : FTy → Type} [FloatOps F] (main_arg0 : FVec F S8192x1024 .f32) (main_arg1 : FVec F S50257x1024 .f32) (main_arg2 : FVec F S50257 .f32) (main_arg3 : FVec F S50257 .f32) (main_arg4 : IVec S8192 32) (main_arg5 : IVec S4096 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S50257 .f32 := Host.absf main_arg2
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  let main_v14 : FVec F S50257 .f32 := Host.absf main_arg3
  let main_cst_4 : FVec F S_ .f32 := constant S_ .f32 0x7F800000#32
  let main_v15 : FVec F S50257 .f32 := broadcastInDim S50257 ![] bcast_S_S50257 main_cst_4
  let main_v16 : IVec S50257 1 := cmpf .olt main_v14 main_v15
  fn_part1 (F := F) main_v13 main_v16
-- ==== Kernel.lean ====
abbrev S8192x1024 : Shape := ⟨2, ![8192, 1024]⟩
abbrev S50257x1024 : Shape := ⟨2, ![50257, 1024]⟩
abbrev S50257 : Shape := ⟨1, ![50257]⟩
abbrev S8192 : Shape := ⟨1, ![8192]⟩
abbrev S4096 : Shape := ⟨1, ![4096]⟩
abbrev S_ : Shape := ⟨0, ![]⟩
abbrev S8192x1 : Shape := ⟨2, ![8192, 1]⟩
abbrev S4096x1 : Shape := ⟨2, ![4096, 1]⟩
abbrev S4096x1024 : Shape := ⟨2, ![4096, 1024]⟩
abbrev S1x4096 : Shape := ⟨2, ![1, 4096]⟩
abbrev S8192x4096 : Shape := ⟨2, ![8192, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 69
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S50257x1024, .f32⟩
  | .hbm, ⟨2, _⟩ => ⟨S50257, .f32⟩
  | .hbm, ⟨3, _⟩ => ⟨S50257, .f32⟩
  | .hbm, ⟨4, _⟩ => ⟨S8192, .i32⟩
  | .hbm, ⟨5, _⟩ => ⟨S4096, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1024, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1024, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096, .f32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096, .f32⟩
  | .hbm, ⟨65, _⟩ => ⟨S1x4096, .f32⟩
  | .hbm, ⟨66, _⟩ => ⟨S1x4096, .f32⟩
  | .hbm, ⟨67, _⟩ => ⟨S8192x4096, .f32⟩
  | .hbm, ⟨68, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x1024_S8192_d1 : S8192x1024.ReducesTo [1] S8192
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  gather_S50257x1024_S8192x1_S8192x1024_1_0_n_n_0_1_11024_wf : GatherDims.WF S50257x1024 S8192x1 S8192x1024 [1] [0] [] [0] [] 1 ![1, 1024]
  gather_S50257_S8192x1_S8192_n_0_n_n_0_1_1_wf : GatherDims.WF S50257 S8192x1 S8192 [] [0] [] [0] [] 1 ![1]
  gather_S50257x1024_S4096x1_S4096x1024_1_0_n_n_0_1_11024_wf : GatherDims.WF S50257x1024 S4096x1 S4096x1024 [1] [0] [] [0] [] 1 ![1, 1024]
  gather_S50257_S4096x1_S4096_n_0_n_n_0_1_1_wf : GatherDims.WF S50257 S4096x1 S4096 [] [0] [] [0] [] 1 ![1]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S50257_S8192x1_S8192_n_0_n_n_0_1_1 : GatherDims S50257 S8192x1 S8192 where
  offsetDims := []
  collapsedSliceDims := [0]
  operandBatchingDims := []
  startIndicesBatchingDims := []
  startIndexMap := [0]
  indexVectorDim := 1
  sliceSizes := ![1]
  wf := gather_S50257_S8192x1_S8192_n_0_n_n_0_1_1_wf
def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def gather_S50257_S4096x1_S4096_n_0_n_n_0_1_1 : GatherDims S50257 S4096x1 S4096 where
  offsetDims := []
  collapsedSliceDims := [0]
  operandBatchingDims := []
  startIndicesBatchingDims := []
  startIndexMap := [0]
  indexVectorDim := 1
  sliceSizes := ![1]
  wf := gather_S50257_S4096x1_S4096_n_0_n_n_0_1_1_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S50257x1024 : Shape := ⟨2, ![50257, 1024]⟩
abbrev S50257 : Shape := ⟨1, ![50257]⟩
abbrev S8192 : Shape := ⟨1, ![8192]⟩
abbrev S4096 : Shape := ⟨1, ![4096]⟩
abbrev S_ : Shape := ⟨0, ![]⟩
abbrev S8192x1 : Shape := ⟨2, ![8192, 1]⟩
abbrev S4096x1 : Shape := ⟨2, ![4096, 1]⟩
abbrev S4096x1024 : Shape := ⟨2, ![4096, 1024]⟩
abbrev S8192x4096 : Shape := ⟨2, ![8192, 4096]⟩
abbrev S1x4096 : Shape := ⟨2, ![1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S50257x1024, .f32⟩
  | .hbm, ⟨2, _⟩ => ⟨S50257, .f32⟩
  | .hbm, ⟨3, _⟩ => ⟨S50257, .f32⟩
  | .hbm, ⟨4, _⟩ => ⟨S8192, .i32⟩
  | .hbm, ⟨5, _⟩ => ⟨S4096, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1024, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1024, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096, .f32⟩
  | .hbm, ⟨70, _⟩ => ⟨S1x4096, .f32⟩
  | .hbm, ⟨71, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x1024_S8192_d1 : S8192x1024.ReducesTo [1] S8192
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S50257x1024_S8192x1_S8192x1024_1_0_n_n_0_1_11024_wf : GatherDims.WF S50257x1024 S8192x1 S8192x1024 [1] [0] [] [0] [] 1 ![1, 1024]
  gather_S50257_S8192x1_S8192_n_0_n_n_0_1_1_wf : GatherDims.WF S50257 S8192x1 S8192 [] [0] [] [0] [] 1 ![1]
  gather_S50257x1024_S4096x1_S4096x1024_1_0_n_n_0_1_11024_wf : GatherDims.WF S50257x1024 S4096x1 S4096x1024 [1] [0] [] [0] [] 1 ![1, 1024]
  gather_S50257_S4096x1_S4096_n_0_n_n_0_1_1_wf : GatherDims.WF S50257 S4096x1 S4096 [] [0] [] [0] [] 1 ![1]
  dot_S8192x1024_S4096x1024_S8192x4096_1_1_0_0_n_n_wf : DotDims.WF S8192x1024 S4096x1024 S8192x4096 [1] [1] [0] [0] [] []

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S50257_S8192x1_S8192_n_0_n_n_0_1_1 : GatherDims S50257 S8192x1 S8192 where
  offsetDims := []
  collapsedSliceDims := [0]
  operandBatchingDims := []
  startIndicesBatchingDims := []
  startIndexMap := [0]
  indexVectorDim := 1
  sliceSizes := ![1]
  wf := gather_S50257_S8192x1_S8192_n_0_n_n_0_1_1_wf
def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def gather_S50257_S4096x1_S4096_n_0_n_n_0_1_1 : GatherDims S50257 S4096x1 S4096 where
  offsetDims := []
  collapsedSliceDims := [0]
  operandBatchingDims := []
  startIndicesBatchingDims := []
  startIndexMap := [0]
  indexVectorDim := 1
  sliceSizes := ![1]
  wf := gather_S50257_S4096x1_S4096_n_0_n_n_0_1_1_wf
def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.KernelEntry.lean ====
/-
  What the kernel's program holds when its one pallas_call is entered.

  Before the call the host has computed, from the arguments
    input x : f32[8192,1024], weight w : f32[50257,1024], bias b : f32[50257], prior u : f32[50257],
    target t : i32[8192], noise z : i32[4096],
  the target scores  exp (Σ_h x[n,h] · w[t'[n],h] + b[t'[n]])  and the target priors  u[t'[n]]  (two of the four results,
  never touched by the call), and the three gathered operands of the call: the noise rows  w[z'[k], ·],  the noise biases
  b[z'[k]]  and the noise priors  u[z'[k]],  the last two re-laid as one row [1,4096]. Here t' and z' are the indices with a
  negative entry wrapped by adding the table's length 50257, as jnp's indexing does.
  Each of these buffers is stated as ONE term of the argument arrays (the gathers themselves are never opened).
-/
import proofs.«155346_j32744830664773_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The target indices, a negative one wrapped by adding 50257, as a column [8192,1]. -/
def targetIdx (x4 : (⟨S8192, .i32⟩ : BufTy).Contents (Elt F)) : (⟨S8192x1, .i32⟩ : BufTy).Contents (Elt F) :=
  broadcastInDim S8192x1 ![0] bcast_S8192_S8192x1_0 (select (cmpi .slt x4 (broadcastInDim S8192 ![] bcast_S_S8192 (constantI S_ 32 0#32))) (addi x4 (broadcastInDim S8192 ![] bcast_S_S8192 (constantI S_ 32 50257#32))) x4)

/-- The noise indices, a negative one wrapped by adding 50257, as a column [4096,1]. -/
def noiseIdx (x5 : (⟨S4096, .i32⟩ : BufTy).Contents (Elt F)) : (⟨S4096x1, .i32⟩ : BufTy).Contents (Elt F) :=
  broadcastInDim S4096x1 ![0] bcast_S4096_S4096x1_0 (select (cmpi .slt x5 (broadcastInDim S4096 ![] bcast_S_S4096 (constantI S_ 32 0#32))) (addi x5 (broadcastInDim S4096 ![] bcast_S_S4096 (constantI S_ 32 50257#32))) x5)

/-- The target scores: exp of each input row's inner product with its target's weight row, plus that target's bias. -/
def targetScore (x0 : (⟨S8192x1024, .f32⟩ : BufTy).Contents (Elt F)) (x1 : (⟨S50257x1024, .f32⟩ : BufTy).Contents (Elt F))
    (x2 : (⟨S50257, .f32⟩ : BufTy).Contents (Elt F)) (x4 : (⟨S8192, .i32⟩ : BufTy).Contents (Elt F)) : (⟨S8192, .f32⟩ : BufTy).Contents (Elt F) :=
  Host.exp (addf (Host.reduceAdd (mulf x0 (Host.gather gather_S50257x1024_S8192x1_S8192x1024_1_0_n_n_0_1_11024 x1 (targetIdx x4))) (constant S_ .f32 0x00000000#32) reducesTo_S8192x1024_S8192_d1 h_S_) (Host.gather gather_S50257_S8192x1_S8192_n_0_n_n_0_1_1 x2 (targetIdx x4)))

/-- The target priors: the prior at each target. -/
def targetPrior (x3 : (⟨S50257, .f32⟩ : BufTy).Contents (Elt F)) (x4 : (⟨S8192, .i32⟩ : BufTy).Contents (Elt F)) : (⟨S8192, .f32⟩ : BufTy).Contents (Elt F) :=
  Host.gather gather_S50257_S8192x1_S8192_n_0_n_n_0_1_1 x3 (targetIdx x4)

/-- The noise rows: the weight row of each noise sample. -/
def noiseRows (x1 : (⟨S50257x1024, .f32⟩ : BufTy).Contents (Elt F)) (x5 : (⟨S4096, .i32⟩ : BufTy).Contents (Elt F)) : (⟨S4096x1024, .f32⟩ : BufTy).Contents (Elt F) :=
  Host.gather gather_S50257x1024_S4096x1_S4096x1024_1_0_n_n_0_1_11024 x1 (noiseIdx x5)

/-- A table's entry at each noise sample (the bias, the prior). -/
def noiseEntry (x : (⟨S50257, .f32⟩ : BufTy).Contents (Elt F)) (x5 : (⟨S4096, .i32⟩ : BufTy).Contents (Elt F)) : (⟨S4096, .f32⟩ : BufTy).Contents (Elt F) :=
  Host.gather gather_S50257_S4096x1_S4096_n_0_n_n_0_1_1 x (noiseIdx x5)

variable (m : (ℓ : Loc nD τ sig) → Buf (Elt F) ℓ)

/-- At the call's entry the first result already holds the target scores. -/
theorem V_targetScore (c : Dev nD) : V m c main_v17 = targetScore (m ((c : Thread nD τ).loc main_arg0)) (m ((c : Thread nD τ).loc main_arg1)) (m ((c : Thread nD τ).loc main_arg2)) (m ((c : Thread nD τ).loc main_arg4)) := by
  dsimp only [V, hostOps0]
  after_results_simp <;> rfl

/-- At the call's entry the second result already holds the target priors. -/
theorem V_targetPrior (c : Dev nD) : V m c main_v24 = targetPrior (m ((c : Thread nD τ).loc main_arg3)) (m ((c : Thread nD τ).loc main_arg4)) := by
  dsimp only [V, hostOps0]
  after_results_simp <;> rfl

/-- The call's second operand is the noise rows. -/
theorem V_noiseRows (c : Dev nD) : V m c main_v31 = noiseRows (m ((c : Thread nD τ).loc main_arg1)) (m ((c : Thread nD τ).loc main_arg5)) := by
  dsimp only [V, hostOps0]
  after_results_simp <;> rfl

/-- The call's third operand is the noise biases as one row. -/
theorem V_noiseBias (c : Dev nD) : V m c main_v46 = shapeCast S1x4096 (noiseEntry (m ((c : Thread nD τ).loc main_arg2)) (m ((c : Thread nD τ).loc main_arg5))) shapeCasts_S4096_S1x4096 := by
  dsimp only [V, hostOps0]
  after_results_simp <;> rfl

/-- The call's fourth operand is the noise priors as one row. -/
theorem V_noisePrior (c : Dev nD) : V m c main_v47 = shapeCast S1x4096 (noiseEntry (m ((c : Thread nD τ).loc main_arg3)) (m ((c : Thread nD τ).loc main_arg5))) shapeCasts_S4096_S1x4096 := by
  dsimp only [V, hostOps0]
  after_results_simp <;> rfl

end Cert.KernelIdeal.Entry

end
-- ==== Proof.KernelBlock.lean ====
/-
  One grid point's arithmetic, read at an index of the [512,1024] output block.

  The body loads a [512,1024] block x0 of input rows, a [1024,1024] block x1 of noise rows and a [1,1024] row x2 of noise
  biases, and stores  exp (x0 · x1ᵀ + x2)  (the product on the matrix unit into a zero accumulator, its operands rounded to
  bf16 on the way in — no rounding on the extended reals — and the row x2 copied down the 512 rows). At entry (p,q) of the
  block this is  exp (Σ_{h < 1024} x0[p,h] · x1[q,h] + x2[0,q]):  the contraction index of the matrix product, an index of
  a rank-one shape, is re-indexed by its one coordinate h.
  The second store is a [1,1024] row x3 of noise priors copied down the 512 rows: entry (p,q) is x3[0,q].
-/
import proofs.«155346_j32744830664773_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The left operand's index at output entry `j` and contraction index `q`: row `j 0`, column the contraction coordinate. -/
theorem lhs_row (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_col (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
/-- The right operand's index: row `j 1` (the operand is contracted on ITS columns too), column the contraction coordinate. -/
theorem rhs_row (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_col (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- The matrix product into a zero accumulator at entry (p,q): the sum over h of x0[p,h] · x1[q,h]. -/
theorem matmul_entry (x0 : FVec Ideal S512x1024 .bf16) (x1 : FVec Ideal S1024x1024 .bf16) (p : Fin 512) (q : Fin 1024) :
    FloatOps.matmul dot_S512x1024_S1024x1024_S512x1024_1_1_0_0_n_n none x0 x1 (constant S512x1024 .f32 0x00000000#32) (ix2 p q)
      = ∑ h : Fin 1024, x0 (ix2 p h) * x1 (ix2 q h) := by
  rw [Ideal.matmul_constant_zero_apply, ← Equiv.sum_comp (contrEquiv1 dot_S512x1024_S1024x1024_S512x1024_1_1_0_0_n_n 1024 rfl rfl).symm]
  refine Finset.sum_congr rfl fun h _ => ?_
  have hk := contrEquiv1_symm_val dot_S512x1024_S1024x1024_S512x1024_1_1_0_0_n_n 1024 rfl rfl h
  have el : dot_S512x1024_S1024x1024_S512x1024_1_1_0_0_n_n.lhsIdx (ix2 p q) ((contrEquiv1 dot_S512x1024_S1024x1024_S512x1024_1_1_0_0_n_n 1024 rfl rfl).symm h) = ix2 p h := funext fun a => Fin.ext (by
    match a with
    | ⟨0, _⟩ => exact lhs_row _ _
    | ⟨1, _⟩ => exact (lhs_col _ _).trans hk)
  have er : dot_S512x1024_S1024x1024_S512x1024_1_1_0_0_n_n.rhsIdx (ix2 p q) ((contrEquiv1 dot_S512x1024_S1024x1024_S512x1024_1_1_0_0_n_n 1024 rfl rfl).symm h) = ix2 q h := funext fun a => Fin.ext (by
    match a with
    | ⟨0, _⟩ => exact rhs_row _ _
    | ⟨1, _⟩ => exact (rhs_col _ _).trans hk)
  rw [el, er]

/-- The first store at entry (p,q): exp (Σ_h x0[p,h] · x1[q,h] + x2[0,q]). -/
theorem score_entry (x0 : Vec Ideal S512x1024 .f32) (x1 : Vec Ideal S1024x1024 .f32) (x2 : Vec Ideal S1x1024 .f32) (p : Fin 512) (q : Fin 1024) :
    k0_pay1 x0 x1 x2 (ix2 p q) = Ideal.exp ((∑ h : Fin 1024, x0 (ix2 p h) * x1 (ix2 q h)) + x2 (ix2 (0 : Fin 1) q)) := by
  unfold k0_pay1
  show Ideal.exp (FloatOps.matmul (F := Ideal) dot_S512x1024_S1024x1024_S512x1024_1_1_0_0_n_n none (truncf .bf16 x0 bitsLt_bf16_f32) (truncf .bf16 (shapeCast S1024x1024 x1 shapeCasts_S1024x1024_S1024x1024) bitsLt_bf16_f32) (constant S512x1024 .f32 0x00000000#32) (ix2 p q)
      + broadcastTo S512x1024 (shapeCast S1x1024 x2 shapeCasts_S1x1024_S1x1024) broadcasts_S1x1024_S512x1024 (ix2 p q)) = _
  rw [shapeCast_self, shapeCast_self]
  refine congrArg Ideal.exp (congrArg₂ (· + ·) ?_ ?_)
  · exact matmul_entry _ _ p q
  · exact broadcastTo_1b_ab_apply _ _ p q

/-- The second store at entry (p,q): x3[0,q]. -/
theorem prior_entry (x3 : Vec Ideal S1x1024 .f32) (p : Fin 512) (q : Fin 1024) :
    k0_pay2 x3 (ix2 p q) = x3 (ix2 (0 : Fin 1) q) := by
  unfold k0_pay2
  show broadcastTo S512x1024 (shapeCast S1x1024 (shapeCast S1x1024 x3 shapeCasts_S1x1024_S1x1024) shapeCasts_S1x1024_S1x1024) broadcasts_S1x1024_S512x1024 (ix2 p q) = _
  rw [shapeCast_self, shapeCast_self]
  exact broadcastTo_1b_ab_apply _ _ p q

end Cert.KernelIdeal.Block

end
-- ==== Proof.Spec.lean ====
/-
  The two array-valued results the kernel's pallas_call computes, each as ONE function of its operands, index by index,
  on the extended reals.

  For an input matrix A : [8192,1024], a matrix W : [4096,1024] of noise rows, noise biases B : [4096] and noise priors
  U : [4096],
    scores A W B [n,k] = exp (Σ_{h < 1024} A[n,h] · W[k,h] + B[k])          (the noise scores),
    rowCopies U  [n,k] = U[k]                                                (the priors, one copy per input row).
  The sum is a finite sum in the commutative monoid of the extended reals, so no order of summation, no tiling and no
  finiteness of the entries enters it.
-/
import Idealize.ShloMosaic.PureOps.Ideal
import Idealize.ShloMosaic.Lib.ValueIdx

noncomputable section

open scoped BigOperators

namespace Cert.NoiseScores

open Idealize.ShloMosaic Idealize.ShloMosaic.ValueIdx

/-- One noise score: exp of the inner product of input row `n` with noise row `k`, plus noise bias `k`. -/
def scoreAt (A : FVec Ideal ⟨2, ![8192, 1024]⟩ .f32) (W : FVec Ideal ⟨2, ![4096, 1024]⟩ .f32) (B : FVec Ideal ⟨1, ![4096]⟩ .f32)
    (n : Fin 8192) (k : Fin 4096) : EReal :=
  Ideal.exp ((∑ h : Fin 1024, A (ix2 n h) * W (ix2 k h)) + B (ix1 k))

/-- The noise scores as an array [8192,4096]. -/
def scores (A : FVec Ideal ⟨2, ![8192, 1024]⟩ .f32) (W : FVec Ideal ⟨2, ![4096, 1024]⟩ .f32) (B : FVec Ideal ⟨1, ![4096]⟩ .f32) :
    FVec Ideal ⟨2, ![8192, 4096]⟩ .f32 :=
  fun i => scoreAt A W B ⟨(i 0).val, (i 0).isLt⟩ ⟨(i 1).val, (i 1).isLt⟩

theorem scores_ix2 (A : FVec Ideal ⟨2, ![8192, 1024]⟩ .f32) (W : FVec Ideal ⟨2, ![4096, 1024]⟩ .f32) (B : FVec Ideal ⟨1, ![4096]⟩ .f32)
    (n : Fin 8192) (k : Fin 4096) : scores A W B (ix2 n k) = scoreAt A W B n k := rfl

/-- A vector [4096] copied into every row of an array [8192,4096]. -/
def rowCopies (U : FVec Ideal ⟨1, ![4096]⟩ .f32) : FVec Ideal ⟨2, ![8192, 4096]⟩ .f32 :=
  fun i => U (ix1 ⟨(i 1).val, (i 1).isLt⟩)

theorem rowCopies_ix2 (U : FVec Ideal ⟨1, ![4096]⟩ .f32) (n : Fin 8192) (k : Fin 4096) : rowCopies U (ix2 n k) = U (ix1 k) := rfl

end Cert.NoiseScores

end
-- ==== Proof.KernelValue.lean ====
/-
  The kernel's two array-valued results after its pallas_call, each as ONE function of the argument arrays.

  The call runs its body at the 4 × 16 grid points (j, i) — j over the 1024-wide tiles of the noise axis, i over the 512-high
  tiles of the input rows. At (j, i) it is given rows 512·i … 512·i + 511 of the input, rows 1024·j … 1024·j + 1023 of the
  noise rows, and columns 1024·j … 1024·j + 1023 of the bias row and of the prior row; it writes block (i, j) of each of its
  two [8192,4096] results. Entry (p,q) of the first block is  exp (Σ_h x0[p,h] · x1[q,h] + x2[0,q]),  which, with the blocks
  read where they lie in their arrays, is the noise score at [512·i + p, 1024·j + q]; entry (p,q) of the second is x3[0,q],
  the noise prior at 1024·j + q. So every point writes back its block of ONE whole-array function; the 64 blocks tile the
  arrays (the block that holds [n,k] is (n / 512, k / 1024)), hence the arrays end at those functions.
-/
import proofs.«155346_j32744830664773_2_alg».proof.Proof.Gen.KernelIdeal.Value
import proofs.«155346_j32744830664773_2_alg».proof.Proof.KernelEntry
import proofs.«155346_j32744830664773_2_alg».proof.Proof.KernelBlock
import proofs.«155346_j32744830664773_2_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Tiles

open Cert.KernelIdeal Cert.KernelIdeal.Gen Cert.KernelIdeal.Value Cert.KernelIdeal.Entry Cert.KernelIdeal.Block Cert.NoiseScores
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: with (r, s) the output block's index at a point, the input's
    block is (r, 0), the noise rows' (s, 0), the two rows' (0, s); and r ≤ 15, s ≤ 3. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every block index (r, s) with r < 16, s < 4 is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## The input blocks, read where they lie in their arrays -/

/-- The input window's block at a point: entry `x` is the argument at the block's offset plus `x`. -/
theorem in0_apply (c : Dev nD) (t : Fin cfg0.N) (x : S512x1024.Idx) (k : S8192x1024.Idx)
    (hk0 : (k 0).val = win0_0.index t (0 : Fin 2) * 512 + (x 0).val) (hk1 : (k 1).val = win0_0.index t (1 : Fin 2) * 1024 + (x 1).val) :
    (iblk m c 0 t : Vec Ideal S512x1024 .f32) x = (m ((c : Thread nD τ).loc main_arg0) : S8192x1024.Idx → Elt Ideal .f32) k := by
  unfold iblk
  rw [View.read_apply]
  show V m c main_arg0 _ = m (c.tc.loc main_arg0) _
  refine (congrFun (V_main_arg0 m c) _).trans (congrArg _ ?_)
  funext a
  apply Fin.ext
  match a with
  | ⟨0, _⟩ => show win0_0.index t (0 : Fin 2) * 512 + 1 * (x 0).val = (k 0).val; omega
  | ⟨1, _⟩ => show win0_0.index t (1 : Fin 2) * 1024 + 1 * (x 1).val = (k 1).val; omega

/-- The noise rows' block at a point. -/
theorem in1_apply (c : Dev nD) (t : Fin cfg0.N) (x : S1024x1024.Idx) (k : S4096x1024.Idx)
    (hk0 : (k 0).val = win0_1.index t (0 : Fin 2) * 1024 + (x 0).val) (hk1 : (k 1).val = win0_1.index t (1 : Fin 2) * 1024 + (x 1).val) :
    (iblk m c 1 t : Vec Ideal S1024x1024 .f32) x = (V m c main_v31 : S4096x1024.Idx → Elt Ideal .f32) k := by
  unfold iblk
  rw [View.read_apply]
  show V m c main_v31 _ = V m c main_v31 _
  refine congrArg _ ?_
  funext a
  apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

/-- The bias row's block at a point. -/
theorem in2_apply (c : Dev nD) (t : Fin cfg0.N) (x : S1x1024.Idx) (k : S1x4096.Idx)
    (hk0 : (k 0).val = win0_2.index t (0 : Fin 2) * 1 + (x 0).val) (hk1 : (k 1).val = win0_2.index t (1 : Fin 2) * 1024 + (x 1).val) :
    (iblk m c 2 t : Vec Ideal S1x1024 .f32) x = (V m c main_v46 : S1x4096.Idx → Elt Ideal .f32) k := by
  unfold iblk
  rw [View.read_apply]
  show V m c main_v46 _ = V m c main_v46 _
  refine congrArg _ ?_
  funext a
  apply Fin.ext
  match a with
  | ⟨0, _⟩ => show win0_2.index t (0 : Fin 2) * 1 + 1 * (x 0).val = (k 0).val; omega
  | ⟨1, _⟩ => show win0_2.index t (1 : Fin 2) * 1024 + 1 * (x 1).val = (k 1).val; omega

/-- The prior row's block at a point. -/
theorem in3_apply (c : Dev nD) (t : Fin cfg0.N) (x : S1x1024.Idx) (k : S1x4096.Idx)
    (hk0 : (k 0).val = win0_3.index t (0 : Fin 2) * 1 + (x 0).val) (hk1 : (k 1).val = win0_3.index t (1 : Fin 2) * 1024 + (x 1).val) :
    (iblk m c 3 t : Vec Ideal S1x1024 .f32) x = (V m c main_v47 : S1x4096.Idx → Elt Ideal .f32) k := by
  unfold iblk
  rw [View.read_apply]
  show V m c main_v47 _ = V m c main_v47 _
  refine congrArg _ ?_
  funext a
  apply Fin.ext
  match a with
  | ⟨0, _⟩ => show win0_3.index t (0 : Fin 2) * 1 + 1 * (x 0).val = (k 0).val; omega
  | ⟨1, _⟩ => show win0_3.index t (1 : Fin 2) * 1024 + 1 * (x 1).val = (k 1).val; omega

/-! ## What each point writes back -/

/-- A point writes back its block of the noise scores of the whole arrays. -/
theorem flushed4_eq (c : Dev nD) (t : Fin cfg0.N) :
    (dats m 0 c).flushed 4 t = ((cfg0.win 4).blk t).view.read (Elt Ideal)
      (scores (m ((c : Thread nD τ).loc main_arg0)) (noiseRows (m ((c : Thread nD τ).loc main_arg1)) (m ((c : Thread nD τ).loc main_arg5)))
        (noiseEntry (m ((c : Thread nD τ).loc main_arg2)) (m ((c : Thread nD τ).loc main_arg5)))) := by
  rw [flushed4]
  unfold out0_4
  rw [View.canon_unit_zero hz]
  simp only [View.ld_unit_zero (S := S512x1024) hz, View.ld_unit_zero (S := S1024x1024) hz, View.ld_unit_zero (S := S1x1024) hz]
  obtain ⟨e00, e01, e10, e11, e20, e21, e30, e31, e50, e51, b0, b1⟩ := idx_facts t
  funext y
  obtain ⟨p, q, rfl⟩ : ∃ (p : Fin 512) (q : Fin 1024), y = ix2 p q := ⟨y 0, y 1, eq_ix2 y⟩
  -- the entry's place in the whole array: row n = 512·r + p, column k = 1024·s + q
  obtain ⟨n, hn⟩ : ∃ n : Fin 8192, n.val = win0_4.index t (0 : Fin 2) * 512 + p.val := ⟨⟨_, by omega⟩, rfl⟩
  obtain ⟨k, hk⟩ : ∃ k : Fin 4096, k.val = win0_4.index t (1 : Fin 2) * 1024 + q.val := ⟨⟨_, by omega⟩, rfl⟩
  have hg : ((cfg0.win 4).blk t).view.emb (ix2 p q) = ix2 n k := by
    funext a
    apply Fin.ext
    match a with
    | ⟨0, _⟩ => show win0_4.index t (0 : Fin 2) * 512 + 1 * p.val = n.val; omega
    | ⟨1, _⟩ => show win0_4.index t (1 : Fin 2) * 1024 + 1 * q.val = k.val; omega
  show k0_pay1 (iblk m c 0 t) (iblk m c 1 t) (iblk m c 2 t) (ix2 p q)
    = scores (m ((c : Thread nD τ).loc main_arg0)) (noiseRows (m ((c : Thread nD τ).loc main_arg1)) (m ((c : Thread nD τ).loc main_arg5)))
        (noiseEntry (m ((c : Thread nD τ).loc main_arg2)) (m ((c : Thread nD τ).loc main_arg5))) (((cfg0.win 4).blk t).view.emb (ix2 p q))
  refine ((score_entry _ _ _ p q).trans ?_).trans (congrArg (scores _ _ _) hg).symm
  rw [scores_ix2]
  unfold scoreAt
  refine congrArg Ideal.exp (congrArg₂ (· + ·) (Finset.sum_congr rfl fun h _ => congrArg₂ (· * ·) ?_ ?_) ?_)
  · exact in0_apply m c t (ix2 p h) (ix2 n h) (by show n.val = win0_0.index t (0 : Fin 2) * 512 + p.val; omega)
      (by show h.val = win0_0.index t (1 : Fin 2) * 1024 + h.val; omega)
  · exact (in1_apply m c t (ix2 q h) (ix2 k h) (by show k.val = win0_1.index t (0 : Fin 2) * 1024 + q.val; omega)
      (by show h.val = win0_1.index t (1 : Fin 2) * 1024 + h.val; omega)).trans (congrFun (V_noiseRows m c) (ix2 k h))
  · refine (in2_apply m c t (ix2 (0 : Fin 1) q) (ix2 (0 : Fin 1) k) (by show 0 = win0_2.index t (0 : Fin 2) * 1 + 0; omega)
      (by show k.val = win0_2.index t (1 : Fin 2) * 1024 + q.val; omega)).trans ?_
    refine (congrFun (V_noiseBias m c) (ix2 (0 : Fin 1) k)).trans ?_
    exact shapeCast_a_1a_apply _ _ (0 : Fin 1) k

/-- A point writes back its block of the noise priors copied into every row. -/
theorem flushed5_eq (c : Dev nD) (t : Fin cfg0.N) :
    (dats m 0 c).flushed 5 t = ((cfg0.win 5).blk t).view.read (Elt Ideal)
      (rowCopies (noiseEntry (m ((c : Thread nD τ).loc main_arg3)) (m ((c : Thread nD τ).loc main_arg5)))) := by
  rw [flushed5]
  unfold out0_5
  rw [View.canon_unit_zero hz]
  simp only [View.ld_unit_zero (S := S1x1024) hz]
  obtain ⟨e00, e01, e10, e11, e20, e21, e30, e31, e50, e51, b0, b1⟩ := idx_facts t
  funext y
  obtain ⟨p, q, rfl⟩ : ∃ (p : Fin 512) (q : Fin 1024), y = ix2 p q := ⟨y 0, y 1, eq_ix2 y⟩
  obtain ⟨n, hn⟩ : ∃ n : Fin 8192, n.val = win0_4.index t (0 : Fin 2) * 512 + p.val := ⟨⟨_, by omega⟩, rfl⟩
  obtain ⟨k, hk⟩ : ∃ k : Fin 4096, k.val = win0_4.index t (1 : Fin 2) * 1024 + q.val := ⟨⟨_, by omega⟩, rfl⟩
  have hg : ((cfg0.win 5).blk t).view.emb (ix2 p q) = ix2 n k := by
    funext a
    apply Fin.ext
    match a with
    | ⟨0, _⟩ => show win0_5.index t (0 : Fin 2) * 512 + 1 * p.val = n.val; omega
    | ⟨1, _⟩ => show win0_5.index t (1 : Fin 2) * 1024 + 1 * q.val = k.val; omega
  show k0_pay2 (iblk m c 3 t) (ix2 p q)
    = rowCopies (noiseEntry (m ((c : Thread nD τ).loc main_arg3)) (m ((c : Thread nD τ).loc main_arg5))) (((cfg0.win 5).blk t).view.emb (ix2 p q))
  refine ((prior_entry _ p q).trans ?_).trans (congrArg (rowCopies _) hg).symm
  rw [rowCopies_ix2]
  refine (in3_apply m c t (ix2 (0 : Fin 1) q) (ix2 (0 : Fin 1) k) (by show 0 = win0_3.index t (0 : Fin 2) * 1 + 0; omega)
      (by show k.val = win0_3.index t (1 : Fin 2) * 1024 + q.val; omega)).trans ?_
  refine (congrFun (V_noisePrior m c) (ix2 (0 : Fin 1) k)).trans ?_
  exact shapeCast_a_1a_apply _ _ (0 : Fin 1) k

/-! ## The blocks tile the arrays -/

/-- An index of the first result is in a point's block iff each coordinate is in the block's range on its axis. -/
theorem mem_blk4 (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v48_0).slice (win0_4.rect t)).set ↔ _
  rw [View.set_slice_whole, Rect.mem_set_unit]
  exact Iff.rfl

/-- The same for the second result. -/
theorem mem_blk5 (t : Fin cfg0.N) (i : S8192x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v48_1).slice (win0_5.rect t)).set ↔ _
  rw [View.set_slice_whole, Rect.mem_set_unit]
  exact Iff.rfl

/-- Every index [n,k] of the first result is in the block of the point whose block index is (n / 512, k / 1024). -/
theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The same for the second result, whose blocks sit where the first's do. -/
theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  obtain ⟨e00, e01, e10, e11, e20, e21, e30, e31, e50, e51, b0, b1⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The arrays after the call, and the run -/

/-- The first result ends at the noise scores. -/
theorem final4 (c : Dev nD) : (dats m 0 c).arrAt 4 cfg0.N
    = scores (m ((c : Thread nD τ).loc main_arg0)) (noiseRows (m ((c : Thread nD τ).loc main_arg1)) (m ((c : Thread nD τ).loc main_arg5)))
        (noiseEntry (m ((c : Thread nD τ).loc main_arg2)) (m ((c : Thread nD τ).loc main_arg5))) :=
  (dats m 0 c).arrAt_eq_of_cover 4 _ (fun t _ => flushed4_eq m c t) cover4

/-- The second result ends at the noise priors copied into every row. -/
theorem final5 (c : Dev nD) : (dats m 0 c).arrAt 5 cfg0.N
    = rowCopies (noiseEntry (m ((c : Thread nD τ).loc main_arg3)) (m ((c : Thread nD τ).loc main_arg5))) :=
  (dats m 0 c).arrAt_eq_of_cover 5 _ (fun t _ => flushed5_eq m c t) cover5

/-- Every weakly fair execution of the kernel's program terminates with its four results at the target scores, the target
    priors, the noise scores and the row-copied noise priors of the arguments, and the arguments unchanged: the two
    host-computed results are buffers the call never touches, so they end as the call found them. -/
theorem run : θ_run defs (onTc (τ := τ) (main (F := Ideal))) ⟨m, fun _ => 0, ρ⟩ fun r => ∀ c : Dev nD,
      r.2.mem ((c : Thread nD τ).loc main_v17) = targetScore (m ((c : Thread nD τ).loc main_arg0)) (m ((c : Thread nD τ).loc main_arg1)) (m ((c : Thread nD τ).loc main_arg2)) (m ((c : Thread nD τ).loc main_arg4))
      ∧ r.2.mem ((c : Thread nD τ).loc main_v24) = targetPrior (m ((c : Thread nD τ).loc main_arg3)) (m ((c : Thread nD τ).loc main_arg4))
      ∧ r.2.mem ((c : Thread nD τ).loc main_v48_0) = scores (m ((c : Thread nD τ).loc main_arg0)) (noiseRows (m ((c : Thread nD τ).loc main_arg1)) (m ((c : Thread nD τ).loc main_arg5))) (noiseEntry (m ((c : Thread nD τ).loc main_arg2)) (m ((c : Thread nD τ).loc main_arg5)))
      ∧ r.2.mem ((c : Thread nD τ).loc main_v48_1) = rowCopies (noiseEntry (m ((c : Thread nD τ).loc main_arg3)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      ((h c).2 main_v17 (Pipeline.mem_restRefs_of main_v17 (by decide) (by decide))).trans (V_targetScore m c),
      ((h c).2 main_v24 (Pipeline.mem_restRefs_of main_v24 (by decide) (by decide))).trans (V_targetPrior m c),
      (post4 m r h c).trans (final4 m c),
      (post5 m r h c).trans (final5 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Tiles

end
-- ==== Proof.RefValue.lean ====
/-
  The reference's two array-valued results, read index by index.

  jnp computes the noise scores as  exp (dot_general(x, w[z']) + b[z'][None, :])  — a contraction of the input's and the
  noise rows' columns, the biases broadcast over the 8192 rows through a [1,4096] row — and the noise priors as
  u[z'][None, :] broadcast over the rows. Read at [n,k] these are  exp (Σ_{h < 1024} x[n,h] · w[z'[k],h] + b[z'[k]])  and
  u[z'[k]]:  the functions `scores` and `rowCopies` of the gathered operands (which are never opened).
-/
import proofs.«155346_j32744830664773_2_alg».proof.Proof.Gen.ReferenceIdeal.Read
import proofs.«155346_j32744830664773_2_alg».proof.Proof.Spec

noncomputable section

open scoped BigOperators

namespace Cert.ReferenceIdeal.RefValue

open Cert.ReferenceIdeal Cert.ReferenceIdeal.Read Idealize.ShloMosaic Idealize.ShloMosaic.ValueIdx Cert.NoiseScores

/-- The reference's noise scores are `scores` of the input, the gathered noise rows and the gathered noise biases. -/
theorem scores_eq (x0 : (⟨S8192x1024, .f32⟩ : BufTy).Contents (Elt Ideal)) (x1 : (⟨S50257x1024, .f32⟩ : BufTy).Contents (Elt Ideal))
    (x2 : (⟨S50257, .f32⟩ : BufTy).Contents (Elt Ideal)) (x5 : (⟨S4096, .i32⟩ : BufTy).Contents (Elt Ideal)) :
    val_main_v43 (F := Ideal) x0 x1 x2 x5 = scores x0 (val_main_v31 (F := Ideal) x1 x5) (val_main_v38 (F := Ideal) x2 x5) := by
  funext i
  obtain ⟨n, k, rfl⟩ : ∃ (n : Fin 8192) (k : Fin 4096), i = ix2 n k := ⟨i 0, i 1, eq_ix2 i⟩
  rw [scores_ix2, val_main_v43_apply, val_main_v42_apply, val_main_v39_apply, val_main_v41_apply, val_main_v40_apply]
  have e1 : ∀ h : Fin 1024, lidx_main_v39 (ix2 n k) h = ix2 n h := fun h => funext fun a => Fin.ext (by
    match a with | ⟨0, _⟩ => rfl | ⟨1, _⟩ => rfl)
  have e2 : ∀ h : Fin 1024, ridx_main_v39 (ix2 n k) h = ix2 k h := fun h => funext fun a => Fin.ext (by
    match a with | ⟨0, _⟩ => rfl | ⟨1, _⟩ => rfl)
  have e3 : idx_main_v40 (idx_main_v41 (ix2 n k)) = ix1 k := funext fun a => Fin.ext (by
    match a with | ⟨0, _⟩ => rfl)
  simp only [e1, e2, e3]
  rfl

/-- The reference's noise priors are the gathered priors copied into every row. -/
theorem priors_eq (x3 : (⟨S50257, .f32⟩ : BufTy).Contents (Elt Ideal)) (x5 : (⟨S4096, .i32⟩ : BufTy).Contents (Elt Ideal)) :
    val_main_v52 (F := Ideal) x3 x5 = rowCopies (val_main_v50 (F := Ideal) x3 x5) := by
  funext i
  obtain ⟨n, k, rfl⟩ : ∃ (n : Fin 8192) (k : Fin 4096), i = ix2 n k := ⟨i 0, i 1, eq_ix2 i⟩
  rw [rowCopies_ix2, val_main_v52_apply, val_main_v51_apply]
  exact congrArg _ (funext fun a => Fin.ext (by match a with | ⟨0, _⟩ => rfl))

end Cert.ReferenceIdeal.RefValue

end
-- ==== Proof.lean ====
/-
  Noise-contrastive scores: a Pallas kernel against its jnp reference, equal result by result on the extended reals.

  From an input x : f32[8192,1024], a weight table w : f32[50257,1024], biases b and priors u : f32[50257], targets
  t : i32[8192] and noise samples z : i32[4096], both programs return
    the target scores   exp (Σ_h x[n,h] · w[t'[n],h] + b[t'[n]]),      the target priors   u[t'[n]],
    the noise scores    exp (Σ_h x[n,h] · w[z'[k],h] + b[z'[k]]),      the noise priors    u[z'[k]] in every row n,
  with t', z' the indices wrapped as jnp's indexing wraps them. The first two are computed by the same host operations in
  both programs, so they are one term of the arguments. The last two the reference computes with one dot_general and two
  broadcasts; the kernel's program gathers the same three operands and hands them to a pallas_call over a 4 × 16 grid of
  [512,1024] output blocks, whose body multiplies a block of input rows by a block of noise rows on the matrix unit (the
  operands rounded to bf16 on the way in: no rounding on the extended reals), adds the bias row, takes exp, and copies the
  prior row down its block. Both sides are the SAME finite sum in the commutative monoid of the extended reals, entry by
  entry, whatever the tiling; no cancellation, no distributivity, hence no finiteness of the inputs, is used.

  The modules: Spec (the two array functions), KernelEntry (what the call is handed), KernelBlock (one grid point's
  arithmetic at an entry), KernelValue (blocks to arrays, and the kernel program's run), RefValue (the reference's results
  read index by index). Here: the three frames, the empty idealization ledger, and the two runs set side by side.
-/
import proofs.«155346_j32744830664773_2_alg».proof.Defs
import proofs.«155346_j32744830664773_2_alg».proof.Proof.Gen.Kernel
import proofs.«155346_j32744830664773_2_alg».proof.Proof.Gen.Kernel.Skeleton
import proofs.«155346_j32744830664773_2_alg».proof.Proof.Gen.Kernel.Launch
import proofs.«155346_j32744830664773_2_alg».proof.Proof.Gen.Kernel.Points
import proofs.«155346_j32744830664773_2_alg».proof.Proof.Gen.Kernel.Frame
import proofs.«155346_j32744830664773_2_alg».proof.Proof.Gen.KernelIdeal
import proofs.«155346_j32744830664773_2_alg».proof.Proof.Gen.KernelIdeal.Skeleton
import proofs.«155346_j32744830664773_2_alg».proof.Proof.Gen.KernelIdeal.Launch
import proofs.«155346_j32744830664773_2_alg».proof.Proof.Gen.KernelIdeal.Points
import proofs.«155346_j32744830664773_2_alg».proof.Proof.Gen.KernelIdeal.Frame
import proofs.«155346_j32744830664773_2_alg».proof.Proof.Gen.ReferenceIdeal
import proofs.«155346_j32744830664773_2_alg».proof.Proof.Gen.Pre_finite_inputs
import proofs.«155346_j32744830664773_2_alg».proof.Proof.Gen.KernelIdeal.Value
import proofs.«155346_j32744830664773_2_alg».proof.Proof.Gen.ReferenceIdeal.Run
import proofs.«155346_j32744830664773_2_alg».proof.Proof.Gen.ReferenceIdeal.Read
import proofs.«155346_j32744830664773_2_alg».proof.Proof.KernelValue
import proofs.«155346_j32744830664773_2_alg».proof.Proof.RefValue
import Idealize.ShloMosaic.Adequacy
import Idealize.ShloMosaic.Init

noncomputable section

namespace Cert.Proof

open Idealize.ShloMosaic Idealize.SL.Sem

/-! ## The gathered operands are the same terms in both programs -/

/-- The reference's gathered noise rows are the kernel program's. -/
theorem noiseRows_eq (x1 : (⟨Cert.KernelIdeal.S50257x1024, .f32⟩ : BufTy).Contents (Elt Ideal)) (x5 : (⟨Cert.KernelIdeal.S4096, .i32⟩ : BufTy).Contents (Elt Ideal)) :
    Cert.ReferenceIdeal.Read.val_main_v31 (F := Ideal) x1 x5 = Cert.KernelIdeal.Entry.noiseRows (F := Ideal) x1 x5 := rfl

/-- The reference's gathered noise biases are the kernel program's. -/
theorem noiseBias_eq (x2 : (⟨Cert.KernelIdeal.S50257, .f32⟩ : BufTy).Contents (Elt Ideal)) (x5 : (⟨Cert.KernelIdeal.S4096, .i32⟩ : BufTy).Contents (Elt Ideal)) :
    Cert.ReferenceIdeal.Read.val_main_v38 (F := Ideal) x2 x5 = Cert.KernelIdeal.Entry.noiseEntry (F := Ideal) x2 x5 := rfl

/-- The reference's gathered noise priors are the kernel program's. -/
theorem noisePrior_eq (x3 : (⟨Cert.KernelIdeal.S50257, .f32⟩ : BufTy).Contents (Elt Ideal)) (x5 : (⟨Cert.KernelIdeal.S4096, .i32⟩ : BufTy).Contents (Elt Ideal)) :
    Cert.ReferenceIdeal.Read.val_main_v50 (F := Ideal) x3 x5 = Cert.KernelIdeal.Entry.noiseEntry (F := Ideal) x3 x5 := rfl

/-- The reference's target scores are the kernel program's: the same host operations, one after the other. -/
theorem targetScore_eq (x0 : (⟨Cert.KernelIdeal.S8192x1024, .f32⟩ : BufTy).Contents (Elt Ideal)) (x1 : (⟨Cert.KernelIdeal.S50257x1024, .f32⟩ : BufTy).Contents (Elt Ideal))
    (x2 : (⟨Cert.KernelIdeal.S50257, .f32⟩ : BufTy).Contents (Elt Ideal)) (x4 : (⟨Cert.KernelIdeal.S8192, .i32⟩ : BufTy).Contents (Elt Ideal)) :
    Cert.ReferenceIdeal.Read.val_main_v17 (F := Ideal) x0 x1 x2 x4 = Cert.KernelIdeal.Entry.targetScore (F := Ideal) x0 x1 x2 x4 := rfl

/-- The reference's target priors are the kernel program's. -/
theorem targetPrior_eq (x3 : (⟨Cert.KernelIdeal.S50257, .f32⟩ : BufTy).Contents (Elt Ideal)) (x4 : (⟨Cert.KernelIdeal.S8192, .i32⟩ : BufTy).Contents (Elt Ideal)) :
    Cert.ReferenceIdeal.Read.val_main_v24 (F := Ideal) x3 x4 = Cert.KernelIdeal.Entry.targetPrior (F := Ideal) x3 x4 := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference is a host program: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing: the kernel's text read on the extended reals is its idealization. -/
theorem preserves : Cert.preserves_Kernel_KernelIdeal := trivial

/-- From memories that agree on the six arguments both programs end with the same four results: the target scores and priors
    as one term, the noise scores as `scores` and the noise priors as `rowCopies` of the same gathered operands. -/
theorem algebraic : Cert.algebraic_KernelIdeal_ReferenceIdeal := by
  intro m ρ m' ρ' _ hagree
  refine ⟨_, _, _, _, Cert.KernelIdeal.Tiles.run m ρ, ?_⟩
  refine (θ_run Cert.ReferenceIdeal.defs _ _).mono (fun _ h c => ?_) (Cert.ReferenceIdeal.Value.run (F := Ideal) m' ρ')
  obtain ⟨h17, h24, h43, h52, hargs⟩ := h c
  obtain ⟨a0, a1, a2, a3, a4, a5⟩ := hagree c
  refine ⟨h17.trans ?_, h24.trans ?_, h43.trans ?_, h52.trans ?_, hargs⟩
  · rw [Cert.ReferenceIdeal.Read.val_main_v17_eq, a0, a1, a2, a4]
    exact targetScore_eq _ _ _ _
  · rw [Cert.ReferenceIdeal.Read.val_main_v24_eq, a3, a4]
    exact targetPrior_eq _ _
  · rw [Cert.ReferenceIdeal.Read.val_main_v43_eq, Cert.ReferenceIdeal.RefValue.scores_eq, a0, a1, a2, a5, noiseRows_eq, noiseBias_eq]
  · rw [Cert.ReferenceIdeal.Read.val_main_v52_eq, Cert.ReferenceIdeal.RefValue.priors_eq, a3, a5, noisePrior_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
